-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x64x64 : Shape := ⟨4, ![512, 16, 64, 64]⟩
abbrev S512x64x64 : Shape := ⟨3, ![512, 64, 64]⟩
abbrev S_ : Shape := ⟨0, ![]⟩

class Facts : Prop where
  bcast_S_S512x16x64x64 : S_.BroadcastsInDim S512x16x64x64 (![] : Fin 0 → Fin S512x16x64x64.rank)
  reducesTo_S512x16x64x64_S_d0_1_2_3 : S512x16x64x64.ReducesTo [0, 1, 2, 3] S_
  h_S_ : 0 < S_.numel

variable [Facts]

def fn {F : FTy → Type} [FloatOps F] (main_arg0 : FVec F S512x16x64x64 .f32) (main_arg1 : IVec S512x64x64 32) : IVec S_ 1 :=
  let main_v0 : FVec F S512x16x64x64 .f32 := Host.absf main_arg0
  let main_cst : FVec F S_ .f32 := constant S_ .f32 0x7F800000#32
  let main_v1 : FVec F S512x16x64x64 .f32 := broadcastInDim S512x16x64x64 ![] bcast_S_S512x16x64x64 main_cst
  let main_v2 : IVec S512x16x64x64 1 := cmpf .olt main_v0 main_v1
  let main_c : IVec S_ 1 := constantI S_ 1 1#1
  let main_v3 : IVec S_ 1 := (fun x v => Host.reduce IntOp.andi x v reducesTo_S512x16x64x64_S_d0_1_2_3 h_S_) main_v2 main_c
  main_v3
-- ==== Kernel.lean ====
abbrev S512x16x64x64 : Shape := ⟨4, ![512, 16, 64, 64]⟩
abbrev S512x64x64 : Shape := ⟨3, ![512, 64, 64]⟩
abbrev S512x16x4096 : Shape := ⟨3, ![512, 16, 4096]⟩
abbrev S512x4096 : Shape := ⟨2, ![512, 4096]⟩
abbrev S512x16 : Shape := ⟨2, ![512, 16]⟩
abbrev S32x16x4096 : Shape := ⟨3, ![32, 16, 4096]⟩
abbrev S32x4096 : Shape := ⟨2, ![32, 4096]⟩
abbrev S32x16 : Shape := ⟨2, ![32, 16]⟩
abbrev S1x10x1 : Shape := ⟨3, ![1, 10, 1]⟩
abbrev S32x1x4096 : Shape := ⟨3, ![32, 1, 4096]⟩
abbrev S32x10x4096 : Shape := ⟨3, ![32, 10, 4096]⟩
abbrev S32x16x10 : Shape := ⟨3, ![32, 16, 10]⟩
abbrev S32x16x1 : Shape := ⟨3, ![32, 16, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S512x16x64x64, .f32⟩
  | .hbm, ⟨1, _⟩ => ⟨S512x64x64, .i32⟩
  | .hbm, ⟨2, _⟩ => ⟨S512x16x4096, .f32⟩
  | .hbm, ⟨3, _⟩ => ⟨S512x4096, .i32⟩
  | .hbm, ⟨4, _⟩ => ⟨S512x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S32x16x4096, .f32⟩
  | .local _ .vmem, ⟨1, _⟩ => ⟨S32x16x4096, .f32⟩
  | .local _ .vmem, ⟨2, _⟩ => ⟨S32x4096, .i32⟩
  | .local _ .vmem, ⟨3, _⟩ => ⟨S32x4096, .i32⟩
  | .local _ .vmem, ⟨4, _⟩ => ⟨S32x16, .f32⟩
  | .local _ .vmem, ⟨5, _⟩ => ⟨S32x16, .f32⟩
  | _, _ => ⟨S512x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x16x64x64_S512x16x4096 : S512x16x64x64.ShapeCasts S512x16x4096
  shapeCasts_S512x64x64_S512x4096 : S512x64x64.ShapeCasts S512x4096
  inb_S32x16x4096_S32x16x4096_0_0_0 : ∀ a, (![0, 0, 0] : Fin 3 → Nat) a + S32x16x4096.size a ≤ S32x16x4096.size a
  h_S32x16x4096 : 0 < S32x16x4096.numel
  shapeCasts_S32x16x4096_S32x16x4096 : S32x16x4096.ShapeCasts S32x16x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  bitsLt_bf16_f32 : FTy.bits .bf16 < FTy.bits .f32
  iota_S1x10x1_d1_w32 : S1x10x1.Iotas .tc 32 [1]
  shapeCasts_S32x4096_S32x1x4096 : S32x4096.ShapeCasts S32x1x4096
  broadcasts_S32x1x4096_S32x10x4096 : S32x1x4096.Broadcasts S32x10x4096
  broadcasts_S1x10x1_S32x10x4096 : S1x10x1.Broadcasts S32x10x4096
  natLt_1_32 : 1 < 32
  reduces_S32x16x10_S32x16 : S32x16x10.Reduces [2] S32x16
  shapeCasts_S32x16_S32x16x1 : S32x16.ShapeCasts S32x16x1
  broadcasts_S32x16x1_S32x16x10 : S32x16x1.Broadcasts S32x16x10
  inb_S32x16_S32x16_0_0 : ∀ a, (![0, 0] : Fin 2 → Nat) a + S32x16.size a ≤ S32x16.size a
  h_S32x16 : 0 < S32x16.numel
  reducesTo_S512x16_S_d0_1 : S512x16.ReducesTo [0, 1] S_
  h_S_ : 0 < S_.numel
  dot_S32x16x4096_S32x10x4096_S32x16x10_2_2_1_1_0_0_wf : DotDims.WF S32x16x4096 S32x10x4096 S32x16x10 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x4096.size a ≤ S512x16x4096.size a
  hwx0_0 : ∀ i : grid0.Coords, EltTy.bits .f32 = 32 ∨ (Rect.block (s := S512x16x4096) S32x16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S512x4096.size a
  hwx0_1 : ∀ i : grid0.Coords, EltTy.bits .i32 = 32 ∨ (Rect.block (s := S512x4096) S32x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S512x16.size a
  hwx0_2 : ∀ i : grid0.Coords, EltTy.bits .f32 = 32 ∨ (Rect.block (s := S512x16) S32x16.size (cc0_transform_2 i) (hinb0_2 i)).WholeWords (EltTy.packing .f32)

variable [Facts₀]

def dot_S32x16x4096_S32x10x4096_S32x16x10_2_2_1_1_0_0 : DotDims S32x16x4096 S32x10x4096 S32x16x10 where
  lhsContracting := [2]
  rhsContracting := [2]
  lhsNonContracting := [1]
  rhsNonContracting := [1]
  lhsBatch := [0]
  rhsBatch := [0]
  wf := dot_S32x16x4096_S32x10x4096_S32x16x10_2_2_1_1_0_0_wf

abbrev win0_0 : Pipeline.Window sig grid0 :=
  Pipeline.Window.ofSpec (Memref.whole main_v0) S32x16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x16x64x64 : Shape := ⟨4, ![512, 16, 64, 64]⟩
abbrev S512x64x64 : Shape := ⟨3, ![512, 64, 64]⟩
abbrev S512x16x4096 : Shape := ⟨3, ![512, 16, 4096]⟩
abbrev S512x4096 : Shape := ⟨2, ![512, 4096]⟩
abbrev S512x4096x1 : Shape := ⟨3, ![512, 4096, 1]⟩
abbrev S1x1x10 : Shape := ⟨3, ![1, 1, 10]⟩
abbrev S512x4096x10 : Shape := ⟨3, ![512, 4096, 10]⟩
abbrev S512x16x10 : Shape := ⟨3, ![512, 16, 10]⟩
abbrev S_ : Shape := ⟨0, ![]⟩
abbrev S512x16 : Shape := ⟨2, ![512, 16]⟩
abbrev S512x16x1 : Shape := ⟨3, ![512, 16, 1]⟩

abbrev nBuf : Space → Nat
  | .hbm => 31
  | .vmem => 0
  | .smem => 0
  | _ => 0

abbrev bufTy : (tb : Table) → Fin (tcTables nBuf tb) → BufTy
  | .hbm, ⟨0, _⟩ => ⟨S512x16x64x64, .f32⟩
  | .hbm, ⟨1, _⟩ => ⟨S512x64x64, .i32⟩
  | .hbm, ⟨2, _⟩ => ⟨S512x16x4096, .f32⟩
  | .hbm, ⟨3, _⟩ => ⟨S512x4096, .i32⟩
  | .hbm, ⟨4, _⟩ => ⟨S512x4096x1, .i32⟩
  | .hbm, ⟨5, _⟩ => ⟨S1x1x10, .i32⟩
  | .hbm, ⟨6, _⟩ => ⟨S512x4096x10, .i32⟩
  | .hbm, ⟨7, _⟩ => ⟨S512x4096x10, .i32⟩
  | .hbm, ⟨8, _⟩ => ⟨S512x4096x10, .i1⟩
  | .hbm, ⟨9, _⟩ => ⟨S512x4096x10, .f32⟩
  | .hbm, ⟨10, _⟩ => ⟨S512x16x10, .f32⟩
  | .hbm, ⟨11, _⟩ => ⟨S_, .f32⟩
  | .hbm, ⟨12, _⟩ => ⟨S512x16, .f32⟩
  | .hbm, ⟨13, _⟩ => ⟨S512x16x1, .f32⟩
  | .hbm, ⟨14, _⟩ => ⟨S_, .f32⟩
  | .hbm, ⟨15, _⟩ => ⟨S512x16x1, .f32⟩
  | .hbm, ⟨16, _⟩ => ⟨S512x16x1, .f32⟩
  | .hbm, ⟨17, _⟩ => ⟨S512x16x10, .f32⟩
  | .hbm, ⟨18, _⟩ => ⟨S512x16x10, .f32⟩
  | .hbm, ⟨19, _⟩ => ⟨S_, .f32⟩
  | .hbm, ⟨20, _⟩ => ⟨S512x16x10, .f32⟩
  | .hbm, ⟨21, _⟩ => ⟨S512x16x10, .f32⟩
  | .hbm, ⟨22, _⟩ => ⟨S512x16x10, .f32⟩
  | .hbm, ⟨23, _⟩ => ⟨S512x16x10, .f32⟩
  | .hbm, ⟨24, _⟩ => ⟨S_, .f32⟩
  | .hbm, ⟨25, _⟩ => ⟨S512x16, .f32⟩
  | .hbm, ⟨26, _⟩ => ⟨S512x16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S512x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  shapeCasts_S512x16x64x64_S512x16x4096 : S512x16x64x64.ShapeCasts S512x16x4096
  shapeCasts_S512x64x64_S512x4096 : S512x64x64.ShapeCasts S512x4096
  bcast_S512x4096_S512x4096x1_0_1 : S512x4096.BroadcastsInDim S512x4096x1 (![0, 1] : Fin 2 → Fin S512x4096x1.rank)
  bcast_S512x4096x1_S512x4096x10_0_1_2 : S512x4096x1.BroadcastsInDim S512x4096x10 (![0, 1, 2] : Fin 3 → Fin S512x4096x10.rank)
  bcast_S1x1x10_S512x4096x10_0_1_2 : S1x1x10.BroadcastsInDim S512x4096x10 (![0, 1, 2] : Fin 3 → Fin S512x4096x10.rank)
  reducesTo_S512x16x10_S512x16_d2 : S512x16x10.ReducesTo [2] S512x16
  h_S_ : 0 < S_.numel
  bcast_S512x16_S512x16x1_0_1 : S512x16.BroadcastsInDim S512x16x1 (![0, 1] : Fin 2 → Fin S512x16x1.rank)
  bcast_S_S512x16x1 : S_.BroadcastsInDim S512x16x1 (![] : Fin 0 → Fin S512x16x1.rank)
  bcast_S512x16x1_S512x16x10_0_1_2 : S512x16x1.BroadcastsInDim S512x16x10 (![0, 1, 2] : Fin 3 → Fin S512x16x10.rank)
  bcast_S_S512x16x10 : S_.BroadcastsInDim S512x16x10 (![] : Fin 0 → Fin S512x16x10.rank)
  reducesTo_S512x16_S_d0_1 : S512x16.ReducesTo [0, 1] S_
  dot_S512x16x4096_S512x4096x10_S512x16x10_2_1_1_2_0_0_wf : DotDims.WF S512x16x4096 S512x4096x10 S512x16x10 [2] [1] [1] [2] [0] [0]

variable [Facts₀]

def dot_S512x16x4096_S512x4096x10_S512x16x10_2_1_1_2_0_0 : DotDims S512x16x4096 S512x4096x10 S512x16x10 where
  lhsContracting := [2]
  rhsContracting := [1]
  lhsNonContracting := [1]
  rhsNonContracting := [2]
  lhsBatch := [0]
  rhsBatch := [0]
  wf := dot_S512x16x4096_S512x4096x10_S512x16x10_2_1_1_2_0_0_wf

class Facts : Prop extends Facts₀ where

variable [Facts]
-- ==== Proof.Spec.lean ====
/-
  The function both programs compute, stated with no program in sight.

  For one batch element `b` and one head `s` let `a : Fin 4096 → EReal` be the row of attention weights over the
  4096 pixels and `g : Fin 4096 → BitVec 32` the row of colour ids of those pixels. The weighted colour histogram is
  `hist a g c = ∑ k, a k * [g k = c]` for the ten colours `c`; it is normalised by its total plus `ε`,
  `prob a g c = hist a g c / (∑ c', hist a g c' + ε)`, and the row's entropy is
  `rowEnt a g = -∑ c, prob a g c * log (prob a g c + ε)`. The result array holds `rowEnt` of row `(b, s)` of the
  weights and row `b` of the colour ids at index `(b, s)` (`arrEnt`). Everything is read on the extended reals: the
  sums are finite sums of a commutative monoid, the quotient and the logarithm the ideal instance's.
-/
import Idealize.ShloMosaic.PureOps.Ideal
import Idealize.ShloMosaic.Lib.ValueIdx

noncomputable section

open scoped BigOperators

namespace Cert.ColorEntropy

open Idealize.ShloMosaic Idealize.ShloMosaic.ValueIdx

/-- The smoothing constant `ε`: the extended real the f32 word `0x322BCC77` encodes (about `1e-8`). Both programs
    carry the same word, so it is never evaluated. -/
def eps : EReal := Ideal.ofBits .f32 0x322BCC77#32

/-- The indicator `[g = c]` of a colour id against the colour `c`, as the extended real `0` or `1`: the one-bit
    result of the 32-bit comparison read as a natural number. -/
def ind (g : BitVec 32) (c : Fin 10) : EReal := (((IntOp.cmpi .eq g (BitVec.ofNat 32 c.val)).toNat : ℝ) : EReal)

/-- The weighted colour histogram of one row: the total weight of the pixels of colour `c`. -/
def hist (a : Fin 4096 → EReal) (g : Fin 4096 → BitVec 32) (c : Fin 10) : EReal := ∑ k : Fin 4096, a k * ind (g k) c

/-- The histogram normalised by its total plus `ε`. -/
def prob (a : Fin 4096 → EReal) (g : Fin 4096 → BitVec 32) (c : Fin 10) : EReal :=
  Ideal.div (hist a g c) ((∑ c' : Fin 10, hist a g c') + eps)

/-- The entropy of one row's normalised histogram. -/
def rowEnt (a : Fin 4096 → EReal) (g : Fin 4096 → BitVec 32) : EReal :=
  -(∑ c : Fin 10, prob a g c * Ideal.log (prob a g c + eps))

/-- The whole result: entry `(b, s)` is the entropy of row `(b, s)` of the weights against row `b` of the colour ids. -/
def arrEnt (a : (⟨3, ![512, 16, 4096]⟩ : Shape).Idx → EReal) (g : (⟨2, ![512, 4096]⟩ : Shape).Idx → BitVec 32) :
    (⟨2, ![512, 16]⟩ : Shape).Idx → EReal :=
  fun i => rowEnt (fun k => a (ix3 (i 0) (i 1) k)) (fun k => g (ix2 (i 0) k))

theorem arrEnt_ix2 (a : (⟨3, ![512, 16, 4096]⟩ : Shape).Idx → EReal) (g : (⟨2, ![512, 4096]⟩ : Shape).Idx → BitVec 32)
    (b : Fin 512) (s : Fin 16) :
    arrEnt a g (ix2 b s) = rowEnt (fun k => a (ix3 b s k)) (fun k => g (ix2 b k)) := rfl

/-- The mean over the `512 · 16 = 8192` rows, as both programs take it after the rows are computed: the host's sum of
    the whole array from the zero word, divided by the f32 word of `8192`. Both programs apply exactly this to their
    array of row entropies, so it is carried as one function and never opened. -/
def meanOf (hr : (⟨2, ![512, 16]⟩ : Shape).ReducesTo [0, 1] ⟨0, ![]⟩) (hp : 0 < (⟨0, ![]⟩ : Shape).numel)
    (e : (⟨2, ![512, 16]⟩ : Shape).Idx → EReal) : (⟨0, ![]⟩ : Shape).Idx → EReal :=
  Host.divf (F := Ideal) (φ := .f32)
    (Host.reduceAdd (F := Ideal) (φ := .f32) e (constant (F := Ideal) ⟨0, ![]⟩ .f32 0x00000000#32) hr hp)
    (constant (F := Ideal) ⟨0, ![]⟩ .f32 0x46000000#32)

/-- A one-bit word widened to 32 bits and read as a signed integer is the bit read as a natural number: `0` or `1`
    either way. This joins a mask made by zero-extension and a signed conversion with a one-hot made by an unsigned one. -/
theorem bit_signed_eq_unsigned (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

/-- The extended reals' `0 - x` is `-x`. -/
theorem zero_sub_eq_neg (x : EReal) : (0 : EReal) - x = -x := zero_sub x

end Cert.ColorEntropy

end
-- ==== Proof.RefRows.lean ====
/-
  The reference, read row by row: the array it reduces to a mean — its negated sum over the colours — is the row
  entropy of the specification at every `(b, s)`.

  The reference flattens the weights to `[512, 16, 4096]` and the colour ids to `[512, 4096]`, builds the one-hot
  `[g = c]` by comparing the broadcast ids with a colour iota and converting the bit (unsigned), contracts the pixel
  axis against the weights (the histogram), adds `ε` to the histogram's total over the colours, divides, takes
  `log (· + ε)`, multiplies, sums over the colours and negates. Each of these stages is read at an index by the
  generated stage lemmas; what is written here is that the composed index maps name row `(b, s)` and row `b`.
-/
import proofs.«173924_j90915867722048_2_alg».proof.Proof.Gen.ReferenceIdeal.Read
import proofs.«173924_j90915867722048_2_alg».proof.Proof.Spec

noncomputable section

open scoped BigOperators

namespace Cert.ReferenceIdeal.Rows

open Cert.ReferenceIdeal Cert.ReferenceIdeal.Gen Cert.ReferenceIdeal.Read Cert.ColorEntropy
open Idealize.ShloMosaic Idealize.ShloMosaic.ValueIdx

variable (x0 : (⟨S512x16x64x64, .f32⟩ : BufTy).Contents (Elt Ideal)) (x1 : (⟨S512x64x64, .i32⟩ : BufTy).Contents (Elt Ideal))

/-- Row `(b, s)` of the flattened weights. -/
abbrev wrow (b : Fin 512) (s : Fin 16) : Fin 4096 → EReal := fun k => val_main_v0 (F := Ideal) x0 (ix3 b s k)
/-- Row `b` of the flattened colour ids. -/
abbrev grow (b : Fin 512) : Fin 4096 → BitVec 32 := fun k => val_main_v1 (F := Ideal) x1 (ix2 b k)

/-- The one-hot at `(b, k, c)` is the indicator that pixel `k` of batch element `b` has colour `c`. -/
theorem onehot_apply (b : Fin 512) (k : Fin 4096) (c : Fin 10) :
    val_main_v2 (F := Ideal) x1 (ix3 b k c) = ind (grow x1 b k) c := by
  have e : idx_main_call0_v0 (idx_main_call0_v2 (ix3 b k c)) = ix2 b k :=
    funext fun a => Fin.ext (by match a with | ⟨0, _⟩ => rfl | ⟨1, _⟩ => rfl)
  rw [val_main_v2_apply, val_main_call0_v4_apply, val_main_call0_v2_apply, val_main_call0_v0_apply,
    val_main_call0_v3_apply, val_main_call0_v1_apply, e]
  rfl

/-- The contraction over the pixels at `(b, s, c)` is the weighted histogram of row `(b, s)` at colour `c`. -/
theorem hist_apply (b : Fin 512) (s : Fin 16) (c : Fin 10) :
    val_main_v3 (F := Ideal) x0 x1 (ix3 b s c) = hist (wrow x0 b s) (grow x1 b) c := by
  rw [val_main_v3_apply]
  unfold hist
  refine Finset.sum_congr rfl fun k _ => ?_
  have el : lidx_main_v3 (ix3 b s c) k = ix3 b s k :=
    funext fun a => Fin.ext (by match a with | ⟨0, _⟩ => rfl | ⟨1, _⟩ => rfl | ⟨2, _⟩ => rfl)
  have er : ridx_main_v3 (ix3 b s c) k = ix3 b k c :=
    funext fun a => Fin.ext (by match a with | ⟨0, _⟩ => rfl | ⟨1, _⟩ => rfl | ⟨2, _⟩ => rfl)
  rw [el, er, onehot_apply]

/-- The histogram's total over the colours at `(b, s)`: the sum starts from the zero word. -/
theorem total_apply (b : Fin 512) (s : Fin 16) :
    val_main_v4 (F := Ideal) x0 x1 (ix2 b s) = ∑ c : Fin 10, hist (wrow x0 b s) (grow x1 b) c := by
  have e : ∀ k : Fin 10, idx_main_v4 (ix2 b s) k = ix3 b s k := fun k =>
    funext fun a => Fin.ext (by match a with | ⟨0, _⟩ => rfl | ⟨1, _⟩ => rfl | ⟨2, _⟩ => rfl)
  rw [val_main_v4_apply, val_main_cst_apply, Ideal.ofBits_def, Ideal.ofBits_zero_f32, zero_add]
  exact Finset.sum_congr rfl fun k _ => by rw [e, hist_apply]

/-- The quotient at `(b, s, c)` is the normalised histogram: the divisor is the total, kept as a unit axis and
    broadcast back over the colours, plus `ε`. -/
theorem prob_apply (b : Fin 512) (s : Fin 16) (c : Fin 10) :
    val_main_v9 (F := Ideal) x0 x1 (ix3 b s c) = prob (wrow x0 b s) (grow x1 b) c := by
  have e : idx_main_v5 (idx_main_v8 (ix3 b s c)) = ix2 b s :=
    funext fun a => Fin.ext (by match a with | ⟨0, _⟩ => rfl | ⟨1, _⟩ => rfl)
  rw [val_main_v9_apply, val_main_v8_apply, val_main_v7_apply, val_main_v5_apply, val_main_v6_apply,
    val_main_cst_0_apply, hist_apply, e, total_apply]
  rfl

/-- The negated sum over the colours at `(b, s)` is the row's entropy. -/
theorem ent_apply (b : Fin 512) (s : Fin 16) :
    val_main_v15 (F := Ideal) x0 x1 (ix2 b s) = rowEnt (wrow x0 b s) (grow x1 b) := by
  have e : ∀ k : Fin 10, idx_main_v14 (ix2 b s) k = ix3 b s k := fun k =>
    funext fun a => Fin.ext (by match a with | ⟨0, _⟩ => rfl | ⟨1, _⟩ => rfl | ⟨2, _⟩ => rfl)
  rw [val_main_v15_apply, val_main_v14_apply, val_main_cst_2_apply, Ideal.ofBits_def, Ideal.ofBits_zero_f32, zero_add]
  unfold rowEnt
  refine congrArg (fun x : EReal => -x) (Finset.sum_congr rfl fun k _ => ?_)
  rw [e, val_main_v13_apply, val_main_v12_apply, val_main_v11_apply, val_main_v10_apply, val_main_cst_1_apply, prob_apply]
  rfl

/-- THE REFERENCE'S ARRAY: the stage its mean is taken of is the specification's array of row entropies, of the
    flattened weights and colour ids. -/
theorem rows_eq :
    val_main_v15 (F := Ideal) x0 x1 = arrEnt (val_main_v0 (F := Ideal) x0) (val_main_v1 (F := Ideal) x1) := by
  funext i
  obtain ⟨b, s, rfl⟩ : ∃ (b : Fin 512) (s : Fin 16), i = ix2 b s := ⟨i 0, i 1, eq_ix2 i⟩
  rw [ent_apply, arrEnt_ix2]

/-- THE REFERENCE'S RESULT: the mean of the row entropies of the flattened arguments. -/
theorem ref_mean :
    val_main_v17 (F := Ideal) x0 x1
      = meanOf reducesTo_S512x16_S_d0_1 h_S_
          (arrEnt (shapeCast S512x16x4096 x0 shapeCasts_S512x16x64x64_S512x16x4096)
            (shapeCast S512x4096 x1 shapeCasts_S512x64x64_S512x4096)) := by
  show meanOf reducesTo_S512x16_S_d0_1 h_S_ (val_main_v15 (F := Ideal) x0 x1) = _
  rw [rows_eq]
  rfl

end Cert.ReferenceIdeal.Rows

end
-- ==== Proof.KernelRows.lean ====
/-
  The kernel body, read row by row: what one grid point stores at `(p, q)` of its `[32, 16]` output block is the
  row entropy of the specification, of row `(p, q)` of its weights block and row `p` of its colour-id block.

  The body's arithmetic is cut here into four vector functions that compose to the stored value by unfolding alone:
  the mask `[g = c]` over `[32, 10, 4096]` (the ids given a unit colour axis and broadcast, compared with a colour
  iota, the bit zero-extended and converted as a signed integer); the histogram over `[32, 16, 10]` (one matrix
  product per batch element, contracting the pixel axis, into a zero accumulator); the normalisation (the lane sum
  over the colours, kept as a unit axis, plus `ε`, broadcast back and divided by); and the entropy (`0` minus the
  lane sum of `q · log (q + ε)`). Each is read at an index over explicit coordinates.
-/
import proofs.«173924_j90915867722048_2_alg».proof.Proof.Gen.KernelIdeal.Skeleton
import proofs.«173924_j90915867722048_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen Cert.ColorEntropy
open Idealize.ShloMosaic Idealize.ShloMosaic.ValueIdx

/-! ## The body's value in four pieces -/

/-- The mask `[g = c]` as the body builds it, in the matrix unit's input format. -/
def maskOf (x1 : Vec Ideal S32x4096 .i32) : FVec Ideal S32x10x4096 .bf16 :=
  truncf .bf16 (sitofp .f32 (extui 32 (cmpi .eq
    (broadcastTo S32x10x4096 (shapeCast S32x1x4096 (shapeCast S32x4096 x1 shapeCasts_S32x4096_S32x4096)
      shapeCasts_S32x4096_S32x1x4096) broadcasts_S32x1x4096_S32x10x4096)
    (broadcastTo S32x10x4096 (iota .tc S1x10x1 32 [1] iota_S1x10x1_d1_w32) broadcasts_S1x10x1_S32x10x4096))
    natLt_1_32)) bitsLt_bf16_f32

/-- The weighted histogram: per batch element, weights `[16, 4096]` times mask `[10, 4096]` transposed. -/
def histOf (x0 : Vec Ideal S32x16x4096 .f32) (x1 : Vec Ideal S32x4096 .i32) : FVec Ideal S32x16x10 .f32 :=
  matmul dot_S32x16x4096_S32x10x4096_S32x16x10_2_2_1_1_0_0 none
    (truncf .bf16 (shapeCast S32x16x4096 x0 shapeCasts_S32x16x4096_S32x16x4096) bitsLt_bf16_f32)
    (maskOf x1) (constant S32x16x10 .f32 0x00000000#32)

/-- The histogram divided by its total over the colours plus `ε`. -/
def probOf (h : FVec Ideal S32x16x10 .f32) : FVec Ideal S32x16x10 .f32 :=
  divf h (broadcastTo S32x16x10
    (addf (shapeCast S32x16x1 (multiReduction .add [2] S32x16 h 0x00000000#32 reduces_S32x16x10_S32x16 (.inl rfl) rfl)
        shapeCasts_S32x16_S32x16x1)
      (broadcast S32x16x1 (Scalar.ofBits .f32 0x322BCC77#32)))
    broadcasts_S32x16x1_S32x16x10)

/-- Zero minus the total over the colours of `q · log (q + ε)`. -/
def entOf (q : FVec Ideal S32x16x10 .f32) : FVec Ideal S32x16 .f32 :=
  subf (broadcast S32x16 (Scalar.ofBits .f32 0x00000000#32))
    (multiReduction .add [2] S32x16 (mulf q (log (addf q (broadcast S32x16x10 (Scalar.ofBits .f32 0x322BCC77#32)))))
      0x00000000#32 reduces_S32x16x10_S32x16 (.inl rfl) rfl)

/-- The stored value is the four pieces composed. -/
theorem pay_eq (x0 : Vec Ideal S32x16x4096 .f32) (x1 : Vec Ideal S32x4096 .i32) :
    k0_pay1 (F := Ideal) x0 x1 = entOf (probOf (histOf x0 x1)) := rfl

/-! ## Each piece at an index -/

/-- The mask at `(p, c, k)` is the indicator that pixel `k` of the block's batch element `p` has colour `c`. -/
theorem maskOf_apply (x1 : Vec Ideal S32x4096 .i32) (p : Fin 32) (c : Fin 10) (k : Fin 4096) :
    maskOf x1 (ix3 p c k) = ind (x1 (ix2 p k)) c := by
  have eg : broadcastTo S32x10x4096 (shapeCast S32x1x4096 (shapeCast S32x4096 x1 shapeCasts_S32x4096_S32x4096)
      shapeCasts_S32x4096_S32x1x4096) broadcasts_S32x1x4096_S32x10x4096 (ix3 p c k) = x1 (ix2 p k) := by
    rw [shapeCast_self]
    refine (broadcastTo_apply _ broadcasts_S32x1x4096_S32x10x4096 (ix3 p c k) (ix3 p (0 : Fin 1) k) (fun a => ?_)).trans ?_
    · match a with
      | ⟨0, _⟩ => show p.val = if (32 : Nat) = 1 then 0 else p.val; rw [if_neg (by decide)]
      | ⟨1, _⟩ => show 0 = if (1 : Nat) = 1 then 0 else c.val; rw [if_pos rfl]
      | ⟨2, _⟩ => show k.val = if (4096 : Nat) = 1 then 0 else k.val; rw [if_neg (by decide)]
    · exact shapeCast_apply x1 shapeCasts_S32x4096_S32x1x4096 (ix3 p (0 : Fin 1) k) (ix2 p k)
        (by rewrite [Shape.rowMajor_val_two, Shape.rowMajor_val_three]
            show p.val * 4096 + k.val = (p.val * 1 + 0) * 4096 + k.val
            omega)
  have ec : broadcastTo S32x10x4096 (iota .tc S1x10x1 32 [1] iota_S1x10x1_d1_w32) broadcasts_S1x10x1_S32x10x4096 (ix3 p c k)
      = BitVec.ofNat 32 c.val := by
    refine (broadcastTo_apply _ broadcasts_S1x10x1_S32x10x4096 (ix3 p c k) (ix3 (0 : Fin 1) c (0 : Fin 1)) (fun a => ?_)).trans ?_
    · match a with
      | ⟨0, _⟩ => show 0 = if (1 : Nat) = 1 then 0 else p.val; rw [if_pos rfl]
      | ⟨1, _⟩ => show c.val = if (10 : Nat) = 1 then 0 else c.val; rw [if_neg (by decide)]
      | ⟨2, _⟩ => show 0 = if (1 : Nat) = 1 then 0 else k.val; rw [if_pos rfl]
    · exact iota_single_apply .tc S1x10x1 32 1 iota_S1x10x1_d1_w32 _
  show (((((IntOp.cmpi .eq _ _).setWidth 32).toInt : ℝ)) : EReal) = _
  rw [eg, ec, bit_signed_eq_unsigned]
  rfl

/-- A lane sum over the colours at `(p, q)` is the sum of the ten entries of that row. -/
theorem lane_sum (v : FVec Ideal S32x16x10 .f32) (p : Fin 32) (q : Fin 16) :
    multiReduction .add [2] S32x16 v 0x00000000#32 reduces_S32x16x10_S32x16 (.inl rfl) rfl (ix2 p q)
      = ∑ c : Fin 10, v (ix3 p q c) := by
  refine (Ideal.multiReduction_add_single v 0x00000000#32 reduces_S32x16x10_S32x16 (.inl rfl) rfl (ix2 p q)).trans ?_
  show ∑ c : Fin 10, v (reduces_S32x16x10_S32x16.lift (ix2 p q) c) = _
  refine Finset.sum_congr rfl fun c _ => congrArg v (funext fun a => Fin.ext ?_)
  match a with
  | ⟨0, _⟩ => rfl
  | ⟨1, _⟩ => rfl
  | ⟨2, _⟩ => rfl

/-! The matrix product's operand indices, coordinate by coordinate: output `(p, q, c)` and contraction coordinate `k`
    read the weights at `(p, q, k)` and the mask at `(p, c, k)`. -/

theorem lhs0 (i : S32x16x10.Idx) (r : dot_S32x16x4096_S32x10x4096_S32x16x10_2_2_1_1_0_0.contr.Idx) : (dot_S32x16x4096_S32x10x4096_S32x16x10_2_2_1_1_0_0.lhsIdx i r 0).val = (i 0).val := by
  unfold DotDims.lhsIdx
  rw [dif_pos (show (0 : Fin S32x16x4096.rank) ∈ dot_S32x16x4096_S32x10x4096_S32x16x10_2_2_1_1_0_0.lhsBatch by decide)]
  rfl
theorem lhs1 (i : S32x16x10.Idx) (r : dot_S32x16x4096_S32x10x4096_S32x16x10_2_2_1_1_0_0.contr.Idx) : (dot_S32x16x4096_S32x10x4096_S32x16x10_2_2_1_1_0_0.lhsIdx i r 1).val = (i 1).val := by
  unfold DotDims.lhsIdx
  rw [dif_neg (show ¬(1 : Fin S32x16x4096.rank) ∈ dot_S32x16x4096_S32x10x4096_S32x16x10_2_2_1_1_0_0.lhsBatch by decide),
    dif_pos (show (1 : Fin S32x16x4096.rank) ∈ dot_S32x16x4096_S32x10x4096_S32x16x10_2_2_1_1_0_0.lhsNonContracting by decide)]
  rfl
theorem lhs2 (i : S32x16x10.Idx) (r : dot_S32x16x4096_S32x10x4096_S32x16x10_2_2_1_1_0_0.contr.Idx) : (dot_S32x16x4096_S32x10x4096_S32x16x10_2_2_1_1_0_0.lhsIdx i r 2).val = (r ⟨0, by decide⟩).val :=
  dot_S32x16x4096_S32x10x4096_S32x16x10_2_2_1_1_0_0.lhsIdx_val_of_single rfl i r
theorem rhs0 (i : S32x16x10.Idx) (r : dot_S32x16x4096_S32x10x4096_S32x16x10_2_2_1_1_0_0.contr.Idx) : (dot_S32x16x4096_S32x10x4096_S32x16x10_2_2_1_1_0_0.rhsIdx i r 0).val = (i 0).val := by
  unfold DotDims.rhsIdx
  rw [dif_pos (show (0 : Fin S32x10x4096.rank) ∈ dot_S32x16x4096_S32x10x4096_S32x16x10_2_2_1_1_0_0.rhsBatch by decide)]
  rfl
theorem rhs1 (i : S32x16x10.Idx) (r : dot_S32x16x4096_S32x10x4096_S32x16x10_2_2_1_1_0_0.contr.Idx) : (dot_S32x16x4096_S32x10x4096_S32x16x10_2_2_1_1_0_0.rhsIdx i r 1).val = (i 2).val := by
  unfold DotDims.rhsIdx
  rw [dif_neg (show ¬(1 : Fin S32x10x4096.rank) ∈ dot_S32x16x4096_S32x10x4096_S32x16x10_2_2_1_1_0_0.rhsBatch by decide),
    dif_pos (show (1 : Fin S32x10x4096.rank) ∈ dot_S32x16x4096_S32x10x4096_S32x16x10_2_2_1_1_0_0.rhsNonContracting by decide)]
  rfl
theorem rhs2 (i : S32x16x10.Idx) (r : dot_S32x16x4096_S32x10x4096_S32x16x10_2_2_1_1_0_0.contr.Idx) : (dot_S32x16x4096_S32x10x4096_S32x16x10_2_2_1_1_0_0.rhsIdx i r 2).val = (r ⟨0, by decide⟩).val :=
  dot_S32x16x4096_S32x10x4096_S32x16x10_2_2_1_1_0_0.rhsIdx_val_of_single rfl i r

/-- The matrix product at `(p, q, c)` is the weighted histogram of row `(p, q)` of the weights block against row `p`
    of the colour-id block, at colour `c`: the zero accumulator adds nothing and the format change is the identity. -/
theorem histOf_apply (x0 : Vec Ideal S32x16x4096 .f32) (x1 : Vec Ideal S32x4096 .i32) (p : Fin 32) (q : Fin 16) (c : Fin 10) :
    histOf x0 x1 (ix3 p q c) = hist (fun k => x0 (ix3 p q k)) (fun k => x1 (ix2 p k)) c := by
  unfold histOf hist
  refine (Ideal.matmul_constant_zero_apply dot_S32x16x4096_S32x10x4096_S32x16x10_2_2_1_1_0_0 none _ _ (ix3 p q c)).trans ?_
  rw [← Equiv.sum_comp (contrEquiv1 dot_S32x16x4096_S32x10x4096_S32x16x10_2_2_1_1_0_0 4096 rfl rfl).symm]
  refine Finset.sum_congr rfl fun k _ => ?_
  have hk := contrEquiv1_symm_val dot_S32x16x4096_S32x10x4096_S32x16x10_2_2_1_1_0_0 4096 rfl rfl k
  have el : dot_S32x16x4096_S32x10x4096_S32x16x10_2_2_1_1_0_0.lhsIdx (ix3 p q c) ((contrEquiv1 dot_S32x16x4096_S32x10x4096_S32x16x10_2_2_1_1_0_0 4096 rfl rfl).symm k) = ix3 p q k :=
    funext fun a => Fin.ext (by
      match a with
      | ⟨0, _⟩ => exact lhs0 _ _
      | ⟨1, _⟩ => exact lhs1 _ _
      | ⟨2, _⟩ => exact (lhs2 _ _).trans hk)
  have er : dot_S32x16x4096_S32x10x4096_S32x16x10_2_2_1_1_0_0.rhsIdx (ix3 p q c) ((contrEquiv1 dot_S32x16x4096_S32x10x4096_S32x16x10_2_2_1_1_0_0 4096 rfl rfl).symm k) = ix3 p c k :=
    funext fun a => Fin.ext (by
      match a with
      | ⟨0, _⟩ => exact rhs0 _ _
      | ⟨1, _⟩ => exact rhs1 _ _
      | ⟨2, _⟩ => exact (rhs2 _ _).trans hk)
  rw [el, er, maskOf_apply, shapeCast_self]
  rfl

/-- The normalised histogram at `(p, q, c)`: the divisor is the row's total, kept as a unit axis, plus `ε`, read back
    at every colour. -/
theorem probOf_apply (h : FVec Ideal S32x16x10 .f32) (p : Fin 32) (q : Fin 16) (c : Fin 10) :
    probOf h (ix3 p q c) = Ideal.div (h (ix3 p q c)) ((∑ c' : Fin 10, h (ix3 p q c')) + eps) := by
  have eb : broadcastTo S32x16x10
      (addf (shapeCast S32x16x1 (multiReduction .add [2] S32x16 h 0x00000000#32 reduces_S32x16x10_S32x16 (.inl rfl) rfl)
          shapeCasts_S32x16_S32x16x1)
        (broadcast S32x16x1 (Scalar.ofBits .f32 0x322BCC77#32)))
      broadcasts_S32x16x1_S32x16x10 (ix3 p q c) = (∑ c' : Fin 10, h (ix3 p q c')) + eps := by
    refine (broadcastTo_apply _ broadcasts_S32x16x1_S32x16x10 (ix3 p q c) (ix3 p q (0 : Fin 1)) (fun a => ?_)).trans ?_
    · match a with
      | ⟨0, _⟩ => show p.val = if (32 : Nat) = 1 then 0 else p.val; rw [if_neg (by decide)]
      | ⟨1, _⟩ => show q.val = if (16 : Nat) = 1 then 0 else q.val; rw [if_neg (by decide)]
      | ⟨2, _⟩ => show 0 = if (1 : Nat) = 1 then 0 else c.val; rw [if_pos rfl]
    · exact congrArg (fun x : EReal => x + Ideal.ofBits .f32 0x322BCC77#32)
        ((shapeCast_apply _ shapeCasts_S32x16_S32x16x1 (ix3 p q (0 : Fin 1)) (ix2 p q)
          (by rewrite [Shape.rowMajor_val_two, Shape.rowMajor_val_three]
              show p.val * 16 + q.val = (p.val * 16 + q.val) * 1 + 0
              omega)).trans (lane_sum h p q))
  exact congrArg (Ideal.div (h (ix3 p q c))) eb

/-- The entropy at `(p, r)`: zero minus a sum is its negation. -/
theorem entOf_apply (qv : FVec Ideal S32x16x10 .f32) (p : Fin 32) (r : Fin 16) :
    entOf qv (ix2 p r) = -(∑ c : Fin 10, qv (ix3 p r c) * Ideal.log (qv (ix3 p r c) + eps)) := by
  refine (congrArg (fun x : EReal => Ideal.ofBits .f32 0x00000000#32 - x) (lane_sum _ p r)).trans ?_
  rw [Ideal.ofBits_zero_f32, zero_sub_eq_neg]
  rfl

/-- WHAT A GRID POINT STORES at `(p, q)` of its output block: the row entropy of row `(p, q)` of its weights block
    against row `p` of its colour-id block. -/
theorem pay_apply (x0 : Vec Ideal S32x16x4096 .f32) (x1 : Vec Ideal S32x4096 .i32) (p : Fin 32) (q : Fin 16) :
    k0_pay1 (F := Ideal) x0 x1 (ix2 p q) = rowEnt (fun k => x0 (ix3 p q k)) (fun k => x1 (ix2 p k)) := by
  rw [pay_eq, entOf_apply]
  unfold rowEnt prob
  refine congrArg (fun x : EReal => -x) (Finset.sum_congr rfl fun c _ => ?_)
  rw [probOf_apply, histOf_apply]
  simp only [histOf_apply]

end Cert.KernelIdeal.Rows

end
-- ==== Proof.KernelArray.lean ====
/-
  From the grid's blocks to the kernel program's result.

  The grid has 16 points; point `t` fetches rows `32t … 32t + 31` of the flattened weights `[512, 16, 4096]` and of
  the flattened colour ids `[512, 4096]` and writes back rows `32t … 32t + 31` of the `[512, 16]` result. What it
  writes at `(p, q)` is the row entropy of the blocks' rows `(p, q)` and `p`, which are the arrays' rows
  `(32t + p, q)` and `32t + p`: so each write-back is a block of ONE whole-array function, the specification's array
  of row entropies. The 16 blocks tile the result (row `r` is in block `r / 32`), so the result array ends holding
  that function. Before the region the program only flattens its two arguments; after it, it takes the mean of the
  result array.
-/
import proofs.«173924_j90915867722048_2_alg».proof.Proof.Gen.KernelIdeal.Frame
import proofs.«173924_j90915867722048_2_alg».proof.Proof.KernelRows
import Idealize.ShloMosaic.Lib.Pipeline.Value
import Idealize.ShloMosaic.Lib.StableHlo.Run
import Idealize.ShloMosaic.Lib.ValueIdx

noncomputable section

namespace Cert.KernelIdeal.Arr

open Cert.KernelIdeal Cert.KernelIdeal.Gen Cert.KernelIdeal.Rows Cert.ColorEntropy
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The three windows move together: at every grid point both inputs sit at the output's row block and at block `0` on
    their other axes, and the output's row block is one of the 16. Decided over the grid. -/
theorem idx_facts : ∀ t : Fin cfg0.N,
    win0_0.index t (0 : Fin 3) = win0_2.index t (0 : Fin 2) ∧ win0_0.index t (1 : Fin 3) = 0 ∧ win0_0.index t (2 : Fin 3) = 0
    ∧ win0_1.index t (0 : Fin 2) = win0_2.index t (0 : Fin 2) ∧ win0_1.index t (1 : Fin 2) = 0
    ∧ win0_2.index t (1 : Fin 2) = 0 ∧ win0_2.index t (0 : Fin 2) ≤ 15 :=
  (by decide +kernel : ∀ t : Fin grid0.N, _)

/-- Every one of the 16 row blocks of the result is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- The weights block at point `t` is rows `32·(row block) …` of the flattened weights. -/
theorem iblk0_apply (c : Dev nD) (t : Fin cfg0.N) (x : S32x16x4096.Idx) (k : S512x16x4096.Idx)
    (hk0 : (k 0).val = win0_2.index t (0 : Fin 2) * 32 + (x 0).val) (hk1 : (k 1).val = (x 1).val) (hk2 : (k 2).val = (x 2).val) :
    (iblk m c 0 t : Vec Ideal S32x16x4096 .f32) x = (V m c main_v0 : S512x16x4096.Idx → EReal) k := by
  obtain ⟨e0, e1, e2, -, -, -, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 32 + 1 * (x 0).val = (k 0).val; omega
  | ⟨1, _⟩ => show win0_0.index t (1 : Fin 3) * 16 + 1 * (x 1).val = (k 1).val; omega
  | ⟨2, _⟩ => show win0_0.index t (2 : Fin 3) * 4096 + 1 * (x 2).val = (k 2).val; omega

/-- The colour-id block at point `t` is the same rows of the flattened colour ids. -/
theorem iblk1_apply (c : Dev nD) (t : Fin cfg0.N) (x : S32x4096.Idx) (k : S512x4096.Idx)
    (hk0 : (k 0).val = win0_2.index t (0 : Fin 2) * 32 + (x 0).val) (hk1 : (k 1).val = (x 1).val) :
    (iblk m c 1 t : Vec Ideal S32x4096 .i32) x = (V m c main_v1 : S512x4096.Idx → BitVec 32) k := by
  obtain ⟨-, -, -, e3, e4, -, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 32 + 1 * (x 0).val = (k 0).val; omega
  | ⟨1, _⟩ => show win0_1.index t (1 : Fin 2) * 4096 + 1 * (x 1).val = (k 1).val; omega

/-- WHAT POINT `t` WRITES BACK is block `t` of the array of row entropies of the arrays the region finds. -/
theorem flushed_eq (c : Dev nD) (t : Fin cfg0.N) :
    (dats m 0 c).flushed 2 t
      = ((cfg0.win 2).blk t).view.read (Elt Ideal) (arrEnt (V m c main_v0) (V m c main_v1)) := by
  show (cfg0.win 2).cut (grid0.coords t) ((dats m 0 c).after 2 t) = _
  rw [after0_2]
  unfold out0_2
  rw [View.canon_unit_zero hz2]
  simp only [View.ld_unit_zero (S := S32x16x4096) hz3, View.ld_unit_zero (S := S32x4096) hz2]
  obtain ⟨-, -, -, -, -, e5, e6⟩ := idx_facts t
  have key : ∀ y : S32x16.Idx, k0_pay1 (F := Ideal) (iblk m c 0 t) (iblk m c 1 t) y
      = arrEnt (V m c main_v0) (V m c main_v1) (((cfg0.win 2).blk t).view.emb y) := by
    intro y
    obtain ⟨p, q, rfl⟩ : ∃ (p : Fin 32) (q : Fin 16), y = ix2 p q := ⟨y 0, y 1, eq_ix2 y⟩
    have hp : p.val < 32 := p.isLt
    have hemb : (((cfg0.win 2).blk t).view.emb (ix2 p q) : S512x16.Idx)
        = ix2 (⟨win0_2.index t (0 : Fin 2) * 32 + p.val, by omega⟩ : Fin 512) q := by
      funext a; apply Fin.ext
      match a with
      | ⟨0, _⟩ => show win0_2.index t (0 : Fin 2) * 32 + 1 * p.val = win0_2.index t (0 : Fin 2) * 32 + p.val; omega
      | ⟨1, _⟩ => show win0_2.index t (1 : Fin 2) * 16 + 1 * q.val = q.val; omega
    rw [hemb, arrEnt_ix2]
    refine (pay_apply (iblk m c 0 t) (iblk m c 1 t) p q).trans ?_
    refine congrArg₂ rowEnt (funext fun k => ?_) (funext fun k => ?_)
    · exact iblk0_apply m c t (ix3 p q k) (ix3 _ q k) rfl rfl rfl
    · exact iblk1_apply m c t (ix2 p k) (ix2 _ k) rfl rfl
  funext j
  exact key j

/-- An index of the result is in point `t`'s block iff each coordinate is in the block's range on its axis. -/
theorem mem_blk (t : Fin cfg0.N) (i : S512x16.Idx) :
    i ∈ ((cfg0.win 2).blk t).view.set ↔ ∀ a : Fin 2, win0_2.index t a * S32x16.size a ≤ (i a).val
      ∧ (i a).val < win0_2.index t a * S32x16.size a + S32x16.size a := by
  show i ∈ ((View.whole main_v2).slice (win0_2.rect t)).set ↔ _
  rw [View.set_slice_whole, Rect.mem_set_unit]
  exact Iff.rfl

/-- The blocks tile the result: row `r` is in the block of the point whose row block is `r / 32`. -/
theorem cover (i : S512x16.Idx) :
    ∃ t : Fin cfg0.N, (cfg0.win 2).flush t = true ∧ i ∈ ((cfg0.win 2).blk t).view.set := by
  have hi0 : (i 0).val < 512 := (i 0).isLt
  have hi1 : (i 1).val < 16 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 16 ≤ (i 1).val ∧ (i 1).val < win0_2.index t (1 : Fin 2) * 16 + 16; omega

/-- THE RESULT ARRAY after the region: the array of row entropies of the arrays the region finds. -/
theorem final (c : Dev nD) : (dats m 0 c).arrAt 2 cfg0.N = arrEnt (V m c main_v0) (V m c main_v1) :=
  (dats m 0 c).arrAt_eq_of_cover 2 (arrEnt (V m c main_v0) (V m c main_v1)) (fun t _ => flushed_eq m c t) cover

/-- The region finds the weights flattened … -/
theorem V_main_v0 (c : Dev nD) : (V m c main_v0 : S512x16x4096.Idx → EReal)
    = shapeCast S512x16x4096 (m ((c : Thread nD τ).loc main_arg0)) shapeCasts_S512x16x64x64_S512x16x4096 := by
  show StableHlo.after hostOps0 (fun b => m (c, b)) (Proc.devRef .tc main_v0) = _
  after_results
  rfl

/-- … and the colour ids flattened. -/
theorem V_main_v1 (c : Dev nD) : (V m c main_v1 : S512x4096.Idx → BitVec 32)
    = shapeCast S512x4096 (m ((c : Thread nD τ).loc main_arg1)) shapeCasts_S512x64x64_S512x4096 := by
  show StableHlo.after hostOps0 (fun b => m (c, b)) (Proc.devRef .tc main_v1) = _
  after_results
  rfl

/-- After the region the program takes the mean of the result array. -/
theorem tail_eq (c : Dev nD) :
    Pipeline.afterTail₀ cfgs (dats m) 0 (V0 m) [hostOps1] c main_v4
      = meanOf reducesTo_S512x16_S_d0_1 h_S_ (arrEnt (V m c main_v0) (V m c main_v1)) := by
  unfold Pipeline.afterTail₀
  show StableHlo.after hostOps1 _ (Proc.devRef .tc main_v4) = _
  after_results
  exact congrArg (meanOf reducesTo_S512x16_S_d0_1 h_S_)
    ((Pipeline.withArrays_arr spec0 launch0.win.arr_inj c (V0 m c) (fun w => (dats m 0 c).arrAt w (cfgs 0).N) 2).trans
      (final m c))

/-- THE KERNEL PROGRAM'S RUN, read: every weakly fair execution ends with the result at the mean of the row entropies of
    the flattened arguments, and the arguments as launched. -/
theorem run : θ_run defs (onTc (τ := τ) (main (F := Ideal))) ⟨m, fun _ => 0, ρ⟩ fun r => ∀ c : Dev nD,
      r.2.mem ((c.tc : Thread nD τ).loc main_v4)
        = meanOf reducesTo_S512x16_S_d0_1 h_S_
            (arrEnt (shapeCast S512x16x4096 (m ((c.tc : Thread nD τ).loc main_arg0)) shapeCasts_S512x16x64x64_S512x16x4096)
              (shapeCast S512x4096 (m ((c.tc : Thread nD τ).loc main_arg1)) shapeCasts_S512x64x64_S512x4096))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v4 (Pipeline.mem_restRefs_of main_v4 (by decide) (by decide))).trans
        ((tail_eq m c).trans (by rw [V_main_v0 m c, V_main_v1 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arr

end
-- ==== Proof.lean ====
/-
  The proof of `Cert.Claim`: the entropy of per-head colour histograms, averaged over all `512 · 16` rows.

  Both idealized programs flatten the weights to `[512, 16, 4096]` and the colour ids to `[512, 4096]`, compute for each
  row `(b, s)` the entropy `-∑ c, q c · log (q c + ε)` of the normalised weighted colour histogram
  `q c = h c / (∑ c', h c' + ε)`, `h c = ∑ k, a k · [g k = c]`, and return the mean of the `8192` entropies. The kernel
  does the rows 32 batch elements at a time on a grid of 16 points, with the histogram as one matrix product per batch
  element against a mask made by a signed conversion of a zero-extended comparison bit; the reference does it in one
  `dot_general` against a one-hot made by an unsigned conversion of the same bit, and negates where the kernel subtracts
  from zero. On the extended reals these are the same function index by index: a bit read signed after zero-extension
  or unsigned is `0` or `1` either way, `0 - x = -x`, the two contractions are the same finite sum, and the quotient and
  the logarithm are the ideal instance's on both sides. No law used needs the inputs finite, so the precondition is
  not opened.

  `Proof/Spec.lean` states the function (`rowEnt`, `arrEnt`, `meanOf`); `Proof/RefRows.lean` reads the reference's stages
  as it; `Proof/KernelRows.lean` reads what a grid point stores as it; `Proof/KernelArray.lean` goes from the blocks to the
  result array and through the host operations before and after the region. The three frames are the generated ones
  (the reference's is its generated run with the result dropped); the idealization rewrote nothing, so `preserves` is
  `True`.
-/
import proofs.«173924_j90915867722048_2_alg».proof.Defs
import proofs.«173924_j90915867722048_2_alg».proof.Proof.Gen.Kernel
import proofs.«173924_j90915867722048_2_alg».proof.Proof.Gen.Kernel.Skeleton
import proofs.«173924_j90915867722048_2_alg».proof.Proof.Gen.Kernel.Launch
import proofs.«173924_j90915867722048_2_alg».proof.Proof.Gen.Kernel.Points
import proofs.«173924_j90915867722048_2_alg».proof.Proof.Gen.Kernel.Frame
import proofs.«173924_j90915867722048_2_alg».proof.Proof.Gen.KernelIdeal
import proofs.«173924_j90915867722048_2_alg».proof.Proof.Gen.KernelIdeal.Skeleton
import proofs.«173924_j90915867722048_2_alg».proof.Proof.Gen.KernelIdeal.Launch
import proofs.«173924_j90915867722048_2_alg».proof.Proof.Gen.KernelIdeal.Points
import proofs.«173924_j90915867722048_2_alg».proof.Proof.Gen.KernelIdeal.Frame
import proofs.«173924_j90915867722048_2_alg».proof.Proof.Gen.ReferenceIdeal
import proofs.«173924_j90915867722048_2_alg».proof.Proof.Gen.Pre_finite_inputs
import proofs.«173924_j90915867722048_2_alg».proof.Proof.Gen.ReferenceIdeal.Run
import proofs.«173924_j90915867722048_2_alg».proof.Proof.Gen.ReferenceIdeal.Read
import proofs.«173924_j90915867722048_2_alg».proof.Proof.RefRows
import proofs.«173924_j90915867722048_2_alg».proof.Proof.KernelArray
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the mean of the row entropies of the
    flattened arguments: the kernel program by its run read through the blocks, the reference by its stages. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c =>
    ⟨(h c).1.trans ((Cert.ReferenceIdeal.Read.val_main_v17_eq _ _).trans ?_), (h c).2⟩)
    (Cert.ReferenceIdeal.Value.run (F := Ideal) m' ρ')
  rw [(hagree c).1, (hagree c).2]
  exact Cert.ReferenceIdeal.Rows.ref_mean _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
